-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S4096x1024, .f32⟩
  | .local _ .vmem, ⟨14, _⟩ => ⟨S4096x1024, .bf16⟩
  | .local _ .vmem, ⟨15, _⟩ => ⟨S256x1024, .f32⟩
  | .local _ .vmem, ⟨16, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S256x4096_S256 : S256x4096.Reduces [1] S256
  shapeCasts_S256_S256x1 : S256.ShapeCasts S256x1
  broadcasts_S256x1_S256x4096 : S256x1.Broadcasts S256x4096
  broadcasts_S256x1_S256x1024 : S256x1.Broadcasts S256x1024
  dot_S1024x1024_S1024x1024_S1024x1024_1_0_0_1_n_n_wf : DotDims.WF S1024x1024 S1024x1024 S1024x1024 [1] [0] [0] [1] [] []
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x1024.size a
  hwx0_4 : ∀ i : grid0.Coords, EltTy.bits .f32 = 32 ∨ (Rect.block (s := S4096x1024) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x1024.size a
  hwx0_5 : ∀ i : grid0.Coords, EltTy.bits .f32 = 32 ∨ (Rect.block (s := S4096x1024) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x1024.size a
  hwx0_6 : ∀ i : grid0.Coords, EltTy.bits .bf16 = 32 ∨ (Rect.block (s := S4096x1024) S1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .f32 = 32 ∨ (Rect.block (s := S4096x1024) S4096x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x1024.size a
  hwx1_3 : ∀ i : grid1.Coords, EltTy.bits .f32 = 32 ∨ (Rect.block (s := S4096x1024) S256x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  Scaled dot-product self-attention over the extended reals, row by row, in the two arrangements the
  programs of this certificate compute it in, and the law that joins them.

  With q = x·Wq, k = x·Wk, v = x·Wv (plain matrix products, `proj`), row r of the result is, in both programs,
  softmax(q_r · kᵀ / √1024) · v, where for a row of scores s the softmax weights are e_j / L with
  e_j = exp (s_j − max s) and L = Σ e_j.  One program divides the weighted sum by L once, per output entry
  (`attnRow`: (Σ_j e_j · v_jc) / L); the other divides each weight first (`attnRowRef`: Σ_j (e_j / L) · v_jc),
  takes the maximum once more against −∞, starts its sum from 0 and computes its scale as 1 / √1024.
  The scale is the same number (√1024 = 32 exactly, and the other program's literal is 1/32); a further maximum
  against −∞ and a sum started from 0 change nothing; and the division by L moves across the sum — this last
  step is distributivity, which holds because every e_j and v_jc is a real and L is a nonzero real: each e_j is an
  exponential of a real, so L is a sum of positive reals over a nonempty index set.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The constants -/

/-- The pattern of −∞ denotes the bottom extended real. -/
theorem negInf_eq : Ideal.ofBits .f32 0xFF800000#32 = (⊥ : EReal) := by
  simp [Ideal.ofBits, Ideal.ieee]

/-- The literal 0.03125 denotes the real 1/32. -/
theorem scale_eq : Ideal.ofBits .f32 0x3D000000#32 = ((1 / 32 : ℝ) : EReal) := by
  simp [Ideal.ofBits, Ideal.ieee, -EReal.coe_mul]; norm_num

/-- The literal 1.0 denotes 1. -/
theorem one_eq : Ideal.ofBits .f32 0x3F800000#32 = ((1 : ℝ) : EReal) := by
  simp [Ideal.ofBits, Ideal.ieee, -EReal.coe_mul]; norm_num

/-- The literal 1024.0 denotes the real 1024. -/
theorem k1024_eq : Ideal.ofBits .f32 0x44800000#32 = ((1024 : ℝ) : EReal) := by
  simp [Ideal.ofBits, Ideal.ieee, -EReal.coe_mul]; norm_num

/-- 1 / √1024 is 1/32: the square root of 1024 is exactly 32. -/
theorem scaleRef_eq :
    Ideal.div (Ideal.ofBits .f32 0x3F800000#32) (Ideal.sqrt (Ideal.ofBits .f32 0x44800000#32))
      = Ideal.ofBits .f32 0x3D000000#32 := by
  have hs : Real.sqrt 1024 = 32 := by
    rw [show (1024 : ℝ) = 32 ^ 2 by norm_num]; exact Real.sqrt_sq (by norm_num)
  rw [one_eq, k1024_eq, scale_eq, Ideal.sqrt_coe, if_neg (by norm_num), hs,
    Ideal.div_coe (by norm_num : (32 : ℝ) ≠ 0), ← EReal.coe_mul]
  norm_num

/-! ## The two arrangements -/

/-- Entry (r, c) of the matrix product x · w: the sum over k of x (r, k) · w (k, c). -/
def proj (x : (⟨2, ![4096, 1024]⟩ : Shape).Idx → EReal) (w : (⟨2, ![1024, 1024]⟩ : Shape).Idx → EReal)
    (r : Fin 4096) (c : Fin 1024) : EReal :=
  ∑ k : Fin 1024, x (ix2 r k) * w (ix2 k c)

/-- The scaled score of a query row against key row j: (Σ_d q_d · k_jd) · scale. -/
def scoreRow (sc : EReal) (qr : Fin 1024 → EReal) (k : Fin 4096 → Fin 1024 → EReal) (j : Fin 4096) : EReal :=
  (∑ d : Fin 1024, qr d * k j d) * sc

/-- The maximum of a row of scores, folded from −∞. -/
def maxOf (s : Fin 4096 → EReal) : EReal :=
  (Finset.univ : Finset (Fin 4096)).fold max (Ideal.ofBits .f32 0xFF800000#32) s

/-- One output entry, the weighted sum divided once: (Σ_j exp (s_j − max s) · v_jc) / Σ_j exp (s_j − max s). -/
def attnRow (qr : Fin 1024 → EReal) (k v : Fin 4096 → Fin 1024 → EReal) (c : Fin 1024) : EReal :=
  Ideal.div
    (∑ j : Fin 4096, Ideal.exp (scoreRow (Ideal.ofBits .f32 0x3D000000#32) qr k j
        - maxOf (scoreRow (Ideal.ofBits .f32 0x3D000000#32) qr k)) * v j c)
    (∑ j : Fin 4096, Ideal.exp (scoreRow (Ideal.ofBits .f32 0x3D000000#32) qr k j
        - maxOf (scoreRow (Ideal.ofBits .f32 0x3D000000#32) qr k)))

/-- The same entry with every weight divided first, the maximum taken once more against −∞, the sum started from
    0, and the scale computed as 1 / √1024. -/
def attnRowRef (qr : Fin 1024 → EReal) (k v : Fin 4096 → Fin 1024 → EReal) (c : Fin 1024) : EReal :=
  ∑ j : Fin 4096,
    Ideal.div
      (Ideal.exp (scoreRow (Ideal.div (Ideal.ofBits .f32 0x3F800000#32) (Ideal.sqrt (Ideal.ofBits .f32 0x44800000#32))) qr k j
        - max (Ideal.ofBits .f32 0xFF800000#32)
            (maxOf (scoreRow (Ideal.div (Ideal.ofBits .f32 0x3F800000#32) (Ideal.sqrt (Ideal.ofBits .f32 0x44800000#32))) qr k))))
      (Ideal.ofBits .f32 0x00000000#32 + ∑ j' : Fin 4096,
        Ideal.exp (scoreRow (Ideal.div (Ideal.ofBits .f32 0x3F800000#32) (Ideal.sqrt (Ideal.ofBits .f32 0x44800000#32))) qr k j'
          - max (Ideal.ofBits .f32 0xFF800000#32)
              (maxOf (scoreRow (Ideal.div (Ideal.ofBits .f32 0x3F800000#32) (Ideal.sqrt (Ideal.ofBits .f32 0x44800000#32))) qr k))))
    * v j c

/-- The attention of x under the three weight matrices, entry by entry (the divided-once arrangement). -/
def attn (x : (⟨2, ![4096, 1024]⟩ : Shape).Idx → EReal) (wq wk wv : (⟨2, ![1024, 1024]⟩ : Shape).Idx → EReal) :
    (⟨2, ![4096, 1024]⟩ : Shape).Idx → EReal :=
  fun i => attnRow (proj x wq (i 0)) (proj x wk) (proj x wv) (i 1)

/-- The same with each weight divided first. -/
def attnRef (x : (⟨2, ![4096, 1024]⟩ : Shape).Idx → EReal) (wq wk wv : (⟨2, ![1024, 1024]⟩ : Shape).Idx → EReal) :
    (⟨2, ![4096, 1024]⟩ : Shape).Idx → EReal :=
  fun i => attnRowRef (proj x wq (i 0)) (proj x wk) (proj x wv) (i 1)

/-! ## Reals among the extended reals -/

/-- An extended real that is a real number. -/
def IsReal (a : EReal) : Prop := ∃ r : ℝ, a = (r : EReal)

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  rcases le_total a b with h | h
  · rw [max_eq_right h]; exact hb
  · rw [max_eq_left h]; exact ha

theorem IsReal.exp {a : EReal} (ha : IsReal a) : IsReal (Ideal.exp a) := by
  obtain ⟨x, rfl⟩ := ha; exact ⟨Real.exp x, rfl⟩

/-- A finite sum of reals, taken among the extended reals, is the real sum. -/
theorem coe_sum {ι : Type*} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ j ∈ s, IsReal (f j)) : IsReal (∑ j ∈ s, f j) := by
  classical
  induction s using Finset.induction_on with
  | empty => exact ⟨0, by simp⟩
  | insert a s ha ih =>
    rw [Finset.sum_insert ha]
    exact (h a (Finset.mem_insert_self a s)).add (ih fun j hj => h j (Finset.mem_insert_of_mem hj))

/-- The maximum, folded from −∞ (the bottom element), of reals over a nonempty set is a real. -/
theorem isReal_fold_max {ι : Type*} (s : Finset ι) (hs : s.Nonempty) (f : ι → EReal) (hf : ∀ j ∈ s, IsReal (f j)) :
    IsReal (s.fold max (⊥ : EReal) f) := by
  classical
  induction s using Finset.induction_on with
  | empty => exact absurd hs Finset.not_nonempty_empty
  | insert a s ha ih =>
    rw [Finset.fold_insert ha]
    rcases s.eq_empty_or_nonempty with he | hne
    · subst he
      rw [Finset.fold_empty, max_eq_left bot_le]
      exact hf a (Finset.mem_insert_self a _)
    · exact (hf a (Finset.mem_insert_self a s)).max (ih hne fun j hj => hf j (Finset.mem_insert_of_mem hj))

/-! ## The law -/

/-- Division by a nonzero real moves across a finite sum of products of reals. -/
theorem div_sum_of_real {ι : Type*} [Fintype ι] (e v : ι → EReal) (L : EReal) (he : ∀ j, IsReal (e j))
    (hv : ∀ j, IsReal (v j)) (hL : IsReal L) (hL0 : L ≠ 0) :
    Ideal.div (∑ j, e j * v j) L = ∑ j, Ideal.div (e j) L * v j := by
  choose er her using he
  choose vr hvr using hv
  obtain ⟨l, rfl⟩ := hL
  have hl : l ≠ 0 := fun h => hL0 (by rw [h]; rfl)
  obtain rfl : e = fun j => ((er j : ℝ) : EReal) := funext her
  obtain rfl : v = fun j => ((vr j : ℝ) : EReal) := funext hvr
  simp only [Ideal.div_coe hl, ← EReal.coe_mul, coe_sum]
  rw [Finset.sum_mul]
  exact congrArg _ (Finset.sum_congr rfl fun j _ => by ring)

/-- The two arrangements agree on rows of reals. -/
theorem attnRowRef_eq_attnRow (qr : Fin 1024 → EReal) (k v : Fin 4096 → Fin 1024 → EReal) (c : Fin 1024)
    (hq : ∀ d, IsReal (qr d)) (hk : ∀ j d, IsReal (k j d)) (hv : ∀ j d, IsReal (v j d)) :
    attnRowRef qr k v c = attnRow qr k v c := by
  unfold attnRowRef attnRow
  rw [scaleRef_eq, Ideal.ofBits_zero_f32, zero_add,
    show max (Ideal.ofBits .f32 0xFF800000#32) (maxOf (scoreRow (Ideal.ofBits .f32 0x3D000000#32) qr k))
      = maxOf (scoreRow (Ideal.ofBits .f32 0x3D000000#32) qr k) from max_eq_right (by rw [negInf_eq]; exact bot_le)]
  have hs : ∀ j, IsReal (scoreRow (Ideal.ofBits .f32 0x3D000000#32) qr k j) := fun j =>
    (isReal_sum _ _ fun d _ => (hq d).mul (hk j d)).mul ⟨1 / 32, scale_eq⟩
  have hM : IsReal (maxOf (scoreRow (Ideal.ofBits .f32 0x3D000000#32) qr k)) := by
    unfold maxOf; rw [negInf_eq]
    exact isReal_fold_max _ ⟨0, Finset.mem_univ _⟩ _ fun j _ => hs j
  have he : ∀ j, IsReal (Ideal.exp (scoreRow (Ideal.ofBits .f32 0x3D000000#32) qr k j
      - maxOf (scoreRow (Ideal.ofBits .f32 0x3D000000#32) qr k))) := fun j => ((hs j).sub hM).exp
  have hL0 : (∑ j : Fin 4096, Ideal.exp (scoreRow (Ideal.ofBits .f32 0x3D000000#32) qr k j
      - maxOf (scoreRow (Ideal.ofBits .f32 0x3D000000#32) qr k))) ≠ 0 := by
    obtain ⟨M, hMe⟩ := hM
    choose sr hsr using hs
    have : ∀ j : Fin 4096, Ideal.exp (scoreRow (Ideal.ofBits .f32 0x3D000000#32) qr k j
        - maxOf (scoreRow (Ideal.ofBits .f32 0x3D000000#32) qr k)) = ((Real.exp (sr j - M) : ℝ) : EReal) := fun j => by
      rw [hsr j, hMe, ← EReal.coe_sub]; rfl
    simp only [this, coe_sum]
    intro h0
    have h0' : (∑ j : Fin 4096, Real.exp (sr j - M)) = 0 := by exact_mod_cast h0
    have hpos : 0 < ∑ j : Fin 4096, Real.exp (sr j - M) :=
      Finset.sum_pos (fun j _ => Real.exp_pos _) ⟨0, Finset.mem_univ _⟩
    exact absurd h0' hpos.ne'
  exact (div_sum_of_real _ (fun j => v j c) _ he (fun j => hv j c) (isReal_sum _ _ fun j _ => he j) hL0).symm

/-- Matrix products of real matrices are real. -/
theorem isReal_proj (x : (⟨2, ![4096, 1024]⟩ : Shape).Idx → EReal) (w : (⟨2, ![1024, 1024]⟩ : Shape).Idx → EReal)
    (hx : ∀ i, IsReal (x i)) (hw : ∀ i, IsReal (w i)) (r : Fin 4096) (c : Fin 1024) : IsReal (proj x w r c) :=
  isReal_sum _ _ fun k _ => (hx _).mul (hw _)

/-- On real inputs the two arrangements of attention are one function. -/
theorem attnRef_eq_attn (x : (⟨2, ![4096, 1024]⟩ : Shape).Idx → EReal) (wq wk wv : (⟨2, ![1024, 1024]⟩ : Shape).Idx → EReal)
    (hx : ∀ i, IsReal (x i)) (hq : ∀ i, IsReal (wq i)) (hk : ∀ i, IsReal (wk i)) (hv : ∀ i, IsReal (wv i)) :
    attnRef x wq wk wv = attn x wq wk wv :=
  funext fun i => attnRowRef_eq_attnRow _ _ _ _ (fun d => isReal_proj x wq hx hq _ d)
    (fun j d => isReal_proj x wk hx hk j d) (fun j d => isReal_proj x wv hx hv j d)

end Cert.Attn

end
-- ==== Proof.Finite.lean ====
import proofs.«126827_j30855045054731_2_alg».proof.Defs
import proofs.«126827_j30855045054731_2_alg».proof.Proof.Gen.Pre_finite_inputs
import Idealize.ShloMosaic.Lib.ReduceAll
import Idealize.ShloMosaic.PureOps.Ideal.Laws

/-!
  Finiteness of the inputs, read back from the stated precondition.

  The precondition is a conjunction, over the four input arrays, of "every entry `a` satisfies `|a| < +∞`",
  each conjunct printed as a reduction by `and` over all axes of the elementwise comparison. On the extended
  reals `|a| = max a (-a)`, and `max a (-a) < ⊤` excludes both `⊤` and `⊥` (for `a = ⊥`, `-a = ⊤`),
  so every entry is a real number.
-/

noncomputable section

namespace Cert.Finite

open Idealize.ShloMosaic

/-- The f32 pattern `0x7F800000` (sign 0, exponent all ones, fraction 0) denotes the top extended real. -/
theorem ofBits_inf_f32 : Ideal.ofBits .f32 0x7F800000#32 = (⊤ : EReal) := by
  simp [Ideal.ofBits, Ideal.ieee]

/-- An extended real whose absolute value `max a (-a)` is strictly below `⊤` is a real number:
    at `a = ⊤` the maximum is `⊤`, at `a = ⊥` it is `-⊥ = ⊤`, and neither is below `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- The one-bit word of a Boolean is 1 exactly when the Boolean is true (a check of both cases). -/
theorem ofBool_eq_one (b : Bool) : BitVec.ofBool b = 1#1 ↔ b = true := by cases b <;> decide

/-- One array: if the reduction by `and`, into a result with a single index, of the elementwise test
    `|x| < +∞` is 1, then every entry of `x` is a real number. Stated for any operand shape `s`, any
    shape `c` of the broadcast constant and any result shape `t` with one index. -/
theorem real_of_all {s t c u : Shape} {axes : List (Fin s.rank)} [Subsingleton t.Idx]
    (x : FVec Ideal s .f32) (dims : Fin c.rank → Fin s.rank) (hb : c.BroadcastsInDim s dims)
    (hr : s.ReducesTo axes t) (hu : 0 < u.numel) (init : u.Idx → BitVec 1) (j : t.Idx)
    (e : Host.reduce IntOp.andi
          (cmpf .olt (Host.absf x) (broadcastInDim s dims hb (constant c .f32 0x7F800000#32))) init hr hu j = 1#1)
    (i : s.Idx) : ∃ r : ℝ, x i = (r : EReal) := by
  have hi := Host.reduce_andi_all _ init hr hu j e i
  -- at index `i` the test compares `max (x i) (-(x i))` with the value of the constant's pattern
  have hi' : Ideal.cmp .olt (max (x i) (-(x i))) (Ideal.ofBits .f32 0x7F800000#32) = 1#1 := hi
  rw [ofBits_inf_f32] at hi'
  apply real_of_abs_lt_top
  simpa [Ideal.cmp, ofBool_eq_one] using hi'

/-- The rank-0 shape has exactly one index (a function out of the empty type). -/
instance : Subsingleton Cert.Pre_finite_inputs.S_.Idx := ⟨fun a b => funext fun d => d.elim0⟩

/-- If the precondition evaluates to 1 on four arrays of extended reals, every entry of each array is a real number. -/
theorem real_of_pre [Cert.Pre_finite_inputs.Facts]
    (x : FVec Ideal Cert.Pre_finite_inputs.S4096x1024 .f32) (w1 w2 w3 : FVec Ideal Cert.Pre_finite_inputs.S1024x1024 .f32)
    (h : Cert.Pre_finite_inputs.fn (F := Ideal) x w1 w2 w3 = (fun _ => 1#1)) :
    (∀ i, ∃ r : ℝ, x i = (r : EReal)) ∧ (∀ i, ∃ r : ℝ, w1 i = (r : EReal)) ∧ (∀ i, ∃ r : ℝ, w2 i = (r : EReal)) ∧ (∀ i, ∃ r : ℝ, w3 i = (r : EReal)) := by
  -- read the rank-0 result at its one index and unfold the printed chain of operations
  have h0 := congrFun h (fun a => a.elim0)
  dsimp only [Cert.Pre_finite_inputs.fn, Cert.Pre_finite_inputs.fn_part1, andi] at h0
  -- a conjunction of four one-bit words is 1 exactly when each word is
  simp only [IntOp.andi_eq_one] at h0
  obtain ⟨⟨⟨hx, h1⟩, h2⟩, h3⟩ := h0
  exact ⟨real_of_all x _ _ _ _ _ _ hx, real_of_all w1 _ _ _ _ _ _ h1, real_of_all w2 _ _ _ _ _ _ h2,
    real_of_all w3 _ _ _ _ _ _ h3⟩

end Cert.Finite

end
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.RefIsSpec.lean ====
/-
  The reference's result, stage by stage, is attention with each weight divided first (`Cert.Attn.attnRef`):
  q, k, v are the three matrix products; the score (r, j) is (Σ_d q_rd · k_jd) · (1 / √1024), read through the
  transpose of k; the row maximum is the fold of max from −∞ over the row, taken once more against −∞; the weights
  are exponentials of score minus maximum; the denominator is 0 plus the row's sum of weights; and the result is the
  product of the divided weights with v.
-/
import proofs.«126827_j30855045054731_2_alg».proof.Proof.Gen.ReferenceIdeal.Read
import proofs.«126827_j30855045054731_2_alg».proof.Proof.Spec
import proofs.«126827_j30855045054731_2_alg».proof.Proof.LibKeepdims
import Idealize.ShloMosaic.PureOps.Reduce

noncomputable section

namespace Cert.ReferenceIdeal.RefValue

open Cert.ReferenceIdeal Cert.ReferenceIdeal.Gen Cert.ReferenceIdeal.Read Idealize.ShloMosaic
open Idealize.ShloMosaic.ValueIdx Cert.Attn

variable (x0 : (⟨S4096x1024, .f32⟩ : BufTy).Contents (Elt Ideal)) (x1 x2 x3 : (⟨S1024x1024, .f32⟩ : BufTy).Contents (Elt Ideal))

/-- The reference's scale, 1 / √1024 as it computes it. -/
abbrev scRef : EReal := Ideal.div (Ideal.ofBits .f32 0x3F800000#32) (Ideal.sqrt (Ideal.ofBits .f32 0x44800000#32))

theorem v0_at (r : Fin 4096) (d : Fin 1024) : val_main_v0 (F := Ideal) x0 x1 (ix2 r d) = proj x0 x1 r d := by
  rw [val_main_v0_apply]; unfold proj
  refine Finset.sum_congr rfl fun k _ => ?_
  have e1 : lidx_main_v0 (ix2 r d) k = ix2 r k := funext fun a => Fin.ext (by match a with | ⟨0, _⟩ => rfl | ⟨1, _⟩ => rfl)
  have e2 : ridx_main_v0 (ix2 r d) k = ix2 k d := funext fun a => Fin.ext (by match a with | ⟨0, _⟩ => rfl | ⟨1, _⟩ => rfl)
  rw [e1, e2]

theorem v1_at (r : Fin 4096) (d : Fin 1024) : val_main_v1 (F := Ideal) x0 x2 (ix2 r d) = proj x0 x2 r d := by
  rw [val_main_v1_apply]; unfold proj
  refine Finset.sum_congr rfl fun k _ => ?_
  have e1 : lidx_main_v1 (ix2 r d) k = ix2 r k := funext fun a => Fin.ext (by match a with | ⟨0, _⟩ => rfl | ⟨1, _⟩ => rfl)
  have e2 : ridx_main_v1 (ix2 r d) k = ix2 k d := funext fun a => Fin.ext (by match a with | ⟨0, _⟩ => rfl | ⟨1, _⟩ => rfl)
  rw [e1, e2]

theorem v2_at (r : Fin 4096) (d : Fin 1024) : val_main_v2 (F := Ideal) x0 x3 (ix2 r d) = proj x0 x3 r d := by
  rw [val_main_v2_apply]; unfold proj
  refine Finset.sum_congr rfl fun k _ => ?_
  have e1 : lidx_main_v2 (ix2 r d) k = ix2 r k := funext fun a => Fin.ext (by match a with | ⟨0, _⟩ => rfl | ⟨1, _⟩ => rfl)
  have e2 : ridx_main_v2 (ix2 r d) k = ix2 k d := funext fun a => Fin.ext (by match a with | ⟨0, _⟩ => rfl | ⟨1, _⟩ => rfl)
  rw [e1, e2]

/-- The transpose of k at (d, j) is k at (j, d). -/
theorem v5_at (d : Fin 1024) (j : Fin 4096) : val_main_v5 (F := Ideal) x0 x2 (ix2 d j) = proj x0 x2 j d := by
  rw [val_main_v5_apply]
  have e : idx_main_v5 (ix2 d j) = ix2 j d := funext fun a => Fin.ext (by match a with | ⟨0, _⟩ => rfl | ⟨1, _⟩ => rfl)
  rw [e, v1_at]

theorem v6_at (r j : Fin 4096) :
    val_main_v6 (F := Ideal) x0 x1 x2 (ix2 r j) = ∑ d : Fin 1024, proj x0 x1 r d * proj x0 x2 j d := by
  rw [val_main_v6_apply]
  refine Finset.sum_congr rfl fun d _ => ?_
  have e1 : lidx_main_v6 (ix2 r j) d = ix2 r d := funext fun a => Fin.ext (by match a with | ⟨0, _⟩ => rfl | ⟨1, _⟩ => rfl)
  have e2 : ridx_main_v6 (ix2 r j) d = ix2 d j := funext fun a => Fin.ext (by match a with | ⟨0, _⟩ => rfl | ⟨1, _⟩ => rfl)
  rw [e1, e2, v0_at, v5_at]

theorem v7_at (i : S4096x4096.Idx) : val_main_v7 (F := Ideal) i = scRef := by
  rw [val_main_v7_apply, val_main_v4_apply, val_main_cst_0_apply, val_main_v3_apply, val_main_cst_apply]
  rfl

/-- The scaled score. -/
theorem v8_at (r j : Fin 4096) :
    val_main_v8 (F := Ideal) x0 x1 x2 (ix2 r j) = scoreRow scRef (proj x0 x1 r) (proj x0 x2) j := by
  rw [val_main_v8_apply, v6_at, v7_at]
  rfl

/-- The row maximum: the fold of max from −∞ over the row's scores. -/
theorem v9_at (r : Fin 4096) :
    val_main_v9 (F := Ideal) x0 x1 x2 (ix1 r) = maxOf (scoreRow scRef (proj x0 x1 r) (proj x0 x2)) := by
  have h : S4096x4096.Reduces [1] S4096 := by decide
  unfold val_main_v9
  rw [Host.reduce_eq_fold_single FloatOps.maximumf _ _ reducesTo_S4096x4096_S4096_d1 h h_S_]
  have hf : (val_main_v8 (F := Ideal) x0 x1 x2 ∘ h.lift (ix1 r))
      = fun j : Fin 4096 => scoreRow scRef (proj x0 x1 r) (proj x0 x2) j := funext fun j => by
    show val_main_v8 (F := Ideal) x0 x1 x2 (h.lift (ix1 r) j) = _
    rw [Cert.LibKeepdims.lift_last2 h r j]
    exact v8_at x0 x1 x2 r ⟨j.val, j.isLt⟩
  unfold maxOf
  show Finset.fold max (Ideal.ofBits .f32 0xFF800000#32) _ (Finset.univ : Finset (Fin 4096)) = _
  exact congrArg (fun f => Finset.fold max (Ideal.ofBits .f32 0xFF800000#32) f (Finset.univ : Finset (Fin 4096))) hf

theorem v13_at (r j : Fin 4096) :
    val_main_v13 (F := Ideal) x0 x1 x2 (ix2 r j)
      = max (Ideal.ofBits .f32 0xFF800000#32) (maxOf (scoreRow scRef (proj x0 x1 r) (proj x0 x2))) := by
  rw [val_main_v13_apply, val_main_v12_apply]
  have e : idx_main_v12 (idx_main_v13 (ix2 r j)) = ix1 r := funext fun a => Fin.ext (by match a with | ⟨0, _⟩ => rfl)
  rw [e, val_main_v11_apply, val_main_v10_apply, val_main_cst_2_apply, v9_at]
  rfl

/-- The weight: the exponential of score minus maximum. -/
theorem v15_at (r j : Fin 4096) :
    val_main_v15 (F := Ideal) x0 x1 x2 (ix2 r j)
      = Ideal.exp (scoreRow scRef (proj x0 x1 r) (proj x0 x2) j
          - max (Ideal.ofBits .f32 0xFF800000#32) (maxOf (scoreRow scRef (proj x0 x1 r) (proj x0 x2)))) := by
  rw [val_main_v15_apply, val_main_v14_apply, v8_at, v13_at]
  rfl

/-- The denominator: 0 plus the row's sum of weights. -/
theorem v18_at (r j : Fin 4096) :
    val_main_v18 (F := Ideal) x0 x1 x2 (ix2 r j)
      = Ideal.ofBits .f32 0x00000000#32 + ∑ j' : Fin 4096,
          Ideal.exp (scoreRow scRef (proj x0 x1 r) (proj x0 x2) j'
            - max (Ideal.ofBits .f32 0xFF800000#32) (maxOf (scoreRow scRef (proj x0 x1 r) (proj x0 x2)))) := by
  rw [val_main_v18_apply, val_main_v17_apply]
  have e : idx_main_v17 (idx_main_v18 (ix2 r j)) = ix1 r := funext fun a => Fin.ext (by match a with | ⟨0, _⟩ => rfl)
  rw [e, val_main_v16_apply, val_main_cst_3_apply]
  refine congrArg (Ideal.ofBits .f32 0x00000000#32 + ·) (Finset.sum_congr rfl fun j' _ => ?_)
  have e' : idx_main_v16 (ix1 r) j' = ix2 r j' := funext fun a => Fin.ext (by match a with | ⟨0, _⟩ => rfl | ⟨1, _⟩ => rfl)
  rw [e', v15_at]

theorem v19_at (r j : Fin 4096) :
    val_main_v19 (F := Ideal) x0 x1 x2 (ix2 r j)
      = Ideal.div (Ideal.exp (scoreRow scRef (proj x0 x1 r) (proj x0 x2) j
          - max (Ideal.ofBits .f32 0xFF800000#32) (maxOf (scoreRow scRef (proj x0 x1 r) (proj x0 x2)))))
        (Ideal.ofBits .f32 0x00000000#32 + ∑ j' : Fin 4096,
          Ideal.exp (scoreRow scRef (proj x0 x1 r) (proj x0 x2) j'
            - max (Ideal.ofBits .f32 0xFF800000#32) (maxOf (scoreRow scRef (proj x0 x1 r) (proj x0 x2))))) := by
  rw [val_main_v19_apply, v15_at, v18_at]
  rfl

/-- The result at (r, c). -/
theorem v20_at (r : Fin 4096) (c : Fin 1024) :
    val_main_v20 (F := Ideal) x0 x1 x2 x3 (ix2 r c) = attnRowRef (proj x0 x1 r) (proj x0 x2) (proj x0 x3) c := by
  rw [val_main_v20_apply]; unfold attnRowRef
  refine Finset.sum_congr rfl fun j _ => ?_
  have e1 : lidx_main_v20 (ix2 r c) j = ix2 r j := funext fun a => Fin.ext (by match a with | ⟨0, _⟩ => rfl | ⟨1, _⟩ => rfl)
  have e2 : ridx_main_v20 (ix2 r c) j = ix2 j c := funext fun a => Fin.ext (by match a with | ⟨0, _⟩ => rfl | ⟨1, _⟩ => rfl)
  rw [e1, e2, v19_at, v2_at]

/-- The reference's result is attention with each weight divided first. -/
theorem result_eq : val_main_v20 (F := Ideal) x0 x1 x2 x3 = attnRef x0 x1 x2 x3 :=
  funext fun i => (congrArg (val_main_v20 (F := Ideal) x0 x1 x2 x3) (eq_ix2 i)).trans (v20_at x0 x1 x2 x3 (i 0) (i 1))

end Cert.ReferenceIdeal.RefValue

end
-- ==== Proof.KernelRun.lean ====
/-
  The idealized kernel's run with its RESULT named.  The program is two kernel regions in sequence: the first
  projects x onto q, k and v, the second reads those three arrays and writes the attention output.  Every weakly fair
  execution terminates without a fault, and in the final memory the result array holds what the second region's
  write-backs leave (its output window's array after the last grid point), the four arguments being as launched.
  The segments, their thread states and the per-region proof data are the generated frame's; only the final reading
  differs: the result buffer is read off the last thread state beside the arguments.
-/
import proofs.«126827_j30855045054731_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last boundary's contents at the result buffer are what the second region's output window leaves. -/
theorem W2_main_v1 (c : Dev nD) :
    W2 m ρ c (Proc.devRef .tc main_v1) = (dat1 (V1 m ρ) c).arrAt 3 cfg1.N :=
  W2_arr m ρ c 3

/-- The three arrays the second region reads are what the first region's output windows leave. -/
theorem V1_main_v0_0 (c : Dev nD) : V1 m ρ c main_v0_0 = (dat0 (V0 m ρ) c).arrAt 4 cfg0.N := W1_arr m ρ c 4
theorem V1_main_v0_1 (c : Dev nD) : V1 m ρ c main_v0_1 = (dat0 (V0 m ρ) c).arrAt 5 cfg0.N := W1_arr m ρ c 5
theorem V1_main_v0_2 (c : Dev nD) : V1 m ρ c main_v0_2 = (dat0 (V0 m ρ) c).arrAt 6 cfg0.N := W1_arr m ρ c 6

set_option backward.isDefEq.respectTransparency.types false in
/-- Every weakly fair execution of the program terminates, nothing faulting; the result array ends at what the
    second region's write-backs leave, the arguments as launched. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Out

end
-- ==== Proof.Region0.lean ====
/-
  The first region: the three projections.  Grid point t stages rows 1024·t … 1024·t + 1023 of x and the whole of
  each weight matrix, and writes the same rows of q = x·Wq, k = x·Wk and v = x·Wv (v through a change of float format,
  which is the identity on extended reals).  An entry of a block product is the sum over the contracted axis of the
  products of the operands' entries; read through the blocks, that is the entry of the whole-array product on the
  block's rows.  The four row blocks tile the 4096 rows, so after the region each output array IS the whole product.
-/
import proofs.«126827_j30855045054731_2_alg».proof.Proof.Gen.KernelIdeal.Frame
import proofs.«126827_j30855045054731_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Proj

open Cert.KernelIdeal Cert.KernelIdeal.Gen Idealize.ShloMosaic Idealize.ShloMosaic.TcCoe Idealize.SL.Sem
open Idealize.ShloMosaic.ValueIdx Cert.Attn
open Idealize.ShloMosaic.Pipeline (Dat)

/-! ## A block product at an entry -/

local notation "D0" => dot_S1024x1024_S1024x1024_S1024x1024_1_0_0_1_n_n

theorem lhs_row (i : S1024x1024.Idx) (q : (D0).contr.Idx) : ((D0).lhsIdx i q 0).val = (i 0).val := by
  unfold DotDims.lhsIdx
  rw [dif_neg (show ¬(0 : Fin S1024x1024.rank) ∈ (D0).lhsBatch by decide), dif_pos (show (0 : Fin S1024x1024.rank) ∈ (D0).lhsNonContracting by decide)]
  rfl
theorem rhs_col (i : S1024x1024.Idx) (q : (D0).contr.Idx) : ((D0).rhsIdx i q 1).val = (i 1).val := by
  unfold DotDims.rhsIdx
  rw [dif_neg (show ¬(1 : Fin S1024x1024.rank) ∈ (D0).rhsBatch by decide), dif_pos (show (1 : Fin S1024x1024.rank) ∈ (D0).rhsNonContracting by decide)]
  rfl

/-- Entry (p, c) of a 1024×1024 block product accumulated from zero: the sum over k of a (p, k) · b (k, c). -/
theorem blockProduct_apply {φ₁ φ₂ : FTy} (a : FVec Ideal S1024x1024 φ₁) (b : FVec Ideal S1024x1024 φ₂) (i : S1024x1024.Idx) :
    matmul (D0) none a b (constant (F := Ideal) S1024x1024 .f32 0x00000000#32) i
      = ∑ k : Fin 1024, a (ix2 (i 0) k) * b (ix2 k (i 1)) := by
  simp only [matmul]
  rw [Ideal.matmul_constant_zero_apply, ← Equiv.sum_comp (contrEquiv1 (D0) 1024 rfl rfl).symm]
  refine Finset.sum_congr rfl fun k _ => ?_
  have hk := contrEquiv1_symm_val (D0) 1024 rfl rfl k
  have el : (D0).lhsIdx i ((contrEquiv1 (D0) 1024 rfl rfl).symm k) = ix2 (i 0) k := funext fun ax => Fin.ext (by
    match ax with
    | ⟨0, _⟩ => exact lhs_row _ _
    | ⟨1, _⟩ => exact ((D0).lhsIdx_val_of_single rfl i _).trans hk)
  have er : (D0).rhsIdx i ((contrEquiv1 (D0) 1024 rfl rfl).symm k) = ix2 k (i 1) := funext fun ax => Fin.ext (by
    match ax with
    | ⟨0, _⟩ => exact ((D0).rhsIdx_val_of_single rfl i _).trans hk
    | ⟨1, _⟩ => exact rhs_col _ _)
  rw [el, er]
  rfl

/-- The q and k payloads are block products; -/
theorem pay1_apply (x0 x1 : Vec Ideal S1024x1024 .f32) (i : S1024x1024.Idx) :
    k0_pay1 (F := Ideal) x0 x1 i = ∑ k : Fin 1024, x0 (ix2 (i 0) k) * x1 (ix2 k (i 1)) := by
  unfold k0_pay1; exact blockProduct_apply x0 x1 i
theorem pay2_apply (x0 x2 : Vec Ideal S1024x1024 .f32) (i : S1024x1024.Idx) :
    k0_pay2 (F := Ideal) x0 x2 i = ∑ k : Fin 1024, x0 (ix2 (i 0) k) * x2 (ix2 k (i 1)) := by
  unfold k0_pay2; exact blockProduct_apply x0 x2 i
/-- and so is the v payload: its changes of float format are the identity on extended reals. -/
theorem pay3_apply (x0 x3 : Vec Ideal S1024x1024 .f32) (i : S1024x1024.Idx) :
    k0_pay3 (F := Ideal) x0 x3 i = ∑ k : Fin 1024, x0 (ix2 (i 0) k) * x3 (ix2 k (i 1)) := by
  unfold k0_pay3
  exact blockProduct_apply (truncf .bf16 x0 bitsLt_bf16_f32) (truncf .bf16 x3 bitsLt_bf16_f32) i

/-! ## From blocks to the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the four grid points: x's block and every output block sit on block row t, every weight
    block is the whole matrix, and no block moves along the columns. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point t writes back to q's array is block t of x · Wq. -/
theorem flushed_q (c : Dev nD) (t : Fin cfg0.N) :
    (dat0 V c).flushed 4 t
      = ((cfg0.win 4).blk t).view.read (Elt Ideal) (fun i => proj (V c main_arg0) (V c main_arg1) (i 0) (i 1)) := by
  show (cfg0.win 4).cut (grid0.coords t) ((dat0 V c).after 4 t) = _
  rw [after0_4]
  unfold out0_4
  rw [View.canon_unit_zero zero_offsets]
  simp only [View.ld_unit_zero (S := S1024x1024) zero_offsets]
  obtain ⟨a0, a1, b0, b1, c0, c1, d0, d1, e0, e1, f0, f1, g0, g1⟩ := block_indices t
  funext j
  refine (pay1_apply (iblk0 V c 0 t) (iblk0 V c 1 t) j).trans ?_
  show _ = proj (V c main_arg0) (V c main_arg1) ((((cfg0.win 4).blk t).view.emb j) 0) ((((cfg0.win 4).blk t).view.emb j) 1)
  unfold proj
  refine Finset.sum_congr rfl fun k _ => ?_
  have h0 : ((cfg0.win 0).blk t).view.emb (ix2 (j 0) k) = ix2 ((((cfg0.win 4).blk t).view.emb j) 0) k := by
    funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 1024 + 1 * k.val = k.val; omega
  have h1 : ((cfg0.win 1).blk t).view.emb (ix2 k (j 1)) = ix2 k ((((cfg0.win 4).blk t).view.emb j) 1) := by
    funext a; apply Fin.ext
    match a with
    | ⟨0, _⟩ => show win0_1.index t (0 : Fin 2) * 1024 + 1 * k.val = k.val; omega
    | ⟨1, _⟩ => show win0_1.index t (1 : Fin 2) * 1024 + 1 * (j 1).val = win0_4.index t (1 : Fin 2) * 1024 + 1 * (j 1).val; omega
  exact congrArg₂ (fun a b : EReal => a * b) (congrArg (V c main_arg0) h0) (congrArg (V c main_arg1) h1)

/-- What point t writes back to k's array is block t of x · Wk. -/
theorem flushed_k (c : Dev nD) (t : Fin cfg0.N) :
    (dat0 V c).flushed 5 t
      = ((cfg0.win 5).blk t).view.read (Elt Ideal) (fun i => proj (V c main_arg0) (V c main_arg2) (i 0) (i 1)) := by
  show (cfg0.win 5).cut (grid0.coords t) ((dat0 V c).after 5 t) = _
  rw [after0_5]
  unfold out0_5
  rw [View.canon_unit_zero zero_offsets]
  simp only [View.ld_unit_zero (S := S1024x1024) zero_offsets]
  obtain ⟨a0, a1, b0, b1, c0, c1, d0, d1, e0, e1, f0, f1, g0, g1⟩ := block_indices t
  funext j
  refine (pay2_apply (iblk0 V c 0 t) (iblk0 V c 2 t) j).trans ?_
  show _ = proj (V c main_arg0) (V c main_arg2) ((((cfg0.win 5).blk t).view.emb j) 0) ((((cfg0.win 5).blk t).view.emb j) 1)
  unfold proj
  refine Finset.sum_congr rfl fun k _ => ?_
  have h0 : ((cfg0.win 0).blk t).view.emb (ix2 (j 0) k) = ix2 ((((cfg0.win 5).blk t).view.emb j) 0) k := by
    funext a; apply Fin.ext
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 1024 + 1 * k.val = k.val; omega
  have h1 : ((cfg0.win 2).blk t).view.emb (ix2 k (j 1)) = ix2 k ((((cfg0.win 5).blk t).view.emb j) 1) := by
    funext a; apply Fin.ext
    match a with
    | ⟨0, _⟩ => show win0_2.index t (0 : Fin 2) * 1024 + 1 * k.val = k.val; omega
    | ⟨1, _⟩ => show win0_2.index t (1 : Fin 2) * 1024 + 1 * (j 1).val = win0_5.index t (1 : Fin 2) * 1024 + 1 * (j 1).val; omega
  exact congrArg₂ (fun a b : EReal => a * b) (congrArg (V c main_arg0) h0) (congrArg (V c main_arg2) h1)

/-- What point t writes back to v's array is block t of x · Wv. -/
theorem flushed_v (c : Dev nD) (t : Fin cfg0.N) :
    (dat0 V c).flushed 6 t
      = ((cfg0.win 6).blk t).view.read (Elt Ideal) (fun i => proj (V c main_arg0) (V c main_arg3) (i 0) (i 1)) := by
  show (cfg0.win 6).cut (grid0.coords t) ((dat0 V c).after 6 t) = _
  rw [after0_6]
  unfold out0_6
  rw [View.canon_unit_zero zero_offsets]
  simp only [View.ld_unit_zero (S := S1024x1024) zero_offsets]
  obtain ⟨a0, a1, b0, b1, c0, c1, d0, d1, e0, e1, f0, f1, g0, g1⟩ := block_indices t
  funext j
  refine (pay3_apply (iblk0 V c 0 t) (iblk0 V c 3 t) j).trans ?_
  show _ = proj (V c main_arg0) (V c main_arg3) ((((cfg0.win 6).blk t).view.emb j) 0) ((((cfg0.win 6).blk t).view.emb j) 1)
  unfold proj
  refine Finset.sum_congr rfl fun k _ => ?_
  have h0 : ((cfg0.win 0).blk t).view.emb (ix2 (j 0) k) = ix2 ((((cfg0.win 6).blk t).view.emb j) 0) k := by
    funext a; apply Fin.ext
    match a with
    | ⟨0, _⟩ => show win0_0.index t (0 : Fin 2) * 1024 + 1 * (j 0).val = win0_6.index t (0 : Fin 2) * 1024 + 1 * (j 0).val; omega
    | ⟨1, _⟩ => show win0_0.index t (1 : Fin 2) * 1024 + 1 * k.val = k.val; omega
  have h1 : ((cfg0.win 3).blk t).view.emb (ix2 k (j 1)) = ix2 k ((((cfg0.win 6).blk t).view.emb j) 1) := by
    funext a; apply Fin.ext
    match a with
    | ⟨0, _⟩ => show win0_3.index t (0 : Fin 2) * 1024 + 1 * k.val = k.val; omega
    | ⟨1, _⟩ => show win0_3.index t (1 : Fin 2) * 1024 + 1 * (j 1).val = win0_6.index t (1 : Fin 2) * 1024 + 1 * (j 1).val; omega
  exact congrArg₂ (fun a b : EReal => a * b) (congrArg (V c main_arg0) h0) (congrArg (V c main_arg3) h1)

/-- An index is in point t's block of q's array exactly when each coordinate is in the block's range. -/
theorem mem_blk_q (t : Fin cfg0.N) (i : S4096x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v0_0).slice (win0_4.rect t)).set ↔ _
  rw [View.set_slice_whole, Rect.mem_set_unit]
  exact Iff.rfl

/-- The four row blocks tile q's array: row r lies in the block of point r / 1024. -/
theorem cover_q (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨a0, a1, b0, b1, c0, c1, d0, d1, e0, e1, f0, f1, g0, g1⟩ := block_indices t
  refine ⟨t, flush0_4 t, ?_⟩
  rw [mem_blk_q]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- An index is in point t's block of k's array exactly when each coordinate is in the block's range. -/
theorem mem_blk_k (t : Fin cfg0.N) (i : S4096x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v0_1).slice (win0_5.rect t)).set ↔ _
  rw [View.set_slice_whole, Rect.mem_set_unit]
  exact Iff.rfl

/-- The four row blocks tile k's array: row r lies in the block of point r / 1024. -/
theorem cover_k (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨a0, a1, b0, b1, c0, c1, d0, d1, e0, e1, f0, f1, g0, g1⟩ := block_indices t
  refine ⟨t, flush0_5 t, ?_⟩
  rw [mem_blk_k]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- An index is in point t's block of v's array exactly when each coordinate is in the block's range. -/
theorem mem_blk_v (t : Fin cfg0.N) (i : S4096x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v0_2).slice (win0_6.rect t)).set ↔ _
  rw [View.set_slice_whole, Rect.mem_set_unit]
  exact Iff.rfl

/-- The four row blocks tile v's array: row r lies in the block of point r / 1024. -/
theorem cover_v (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨a0, a1, b0, b1, c0, c1, d0, d1, e0, e1, f0, f1, g0, g1⟩ := block_indices t
  refine ⟨t, flush0_6 t, ?_⟩
  rw [mem_blk_v]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1024 ≤ (i 1).val ∧ (i 1).val < win0_6.index t (1 : Fin 2) * 1024 + 1024
    omega

/-! ## The arrays after the region -/

/-- After the region, q's array is x · Wq, -/
theorem final_q (c : Dev nD) :
    (dat0 V c).arrAt 4 cfg0.N = fun i => proj (V c main_arg0) (V c main_arg1) (i 0) (i 1) :=
  (dat0 V c).arrAt_eq_of_cover 4 _ (fun t _ => flushed_q V c t) cover_q
/-- k's array is x · Wk, -/
theorem final_k (c : Dev nD) :
    (dat0 V c).arrAt 5 cfg0.N = fun i => proj (V c main_arg0) (V c main_arg2) (i 0) (i 1) :=
  (dat0 V c).arrAt_eq_of_cover 5 _ (fun t _ => flushed_k V c t) cover_k
/-- and v's array is x · Wv. -/
theorem final_v (c : Dev nD) :
    (dat0 V c).arrAt 6 cfg0.N = fun i => proj (V c main_arg0) (V c main_arg3) (i 0) (i 1) :=
  (dat0 V c).arrAt_eq_of_cover 6 _ (fun t _ => flushed_v V c t) cover_v

end Cert.KernelIdeal.Proj

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.Region1.lean ====
/-
  The second region: attention over a block of 256 query rows.  Grid point t stages rows 256·t … 256·t + 255 of q and
  the whole of k and v, and writes the same rows of the output.  For a query row p of the block, the body forms the
  scores s_j = (Σ_d q_pd · k_jd) · (1/32) against every key row j, their maximum M folded from −∞, the weights
  e_j = exp (s_j − M), their sum L, the weighted sums Σ_j e_j · v_jc, and divides each by L: one row of attention in the
  divided-once arrangement (`Cert.Attn.attnRow`).  Changes of float format are the identity on extended reals.
-/
import proofs.«126827_j30855045054731_2_alg».proof.Proof.Gen.KernelIdeal.Frame
import proofs.«126827_j30855045054731_2_alg».proof.Proof.Spec
import proofs.«126827_j30855045054731_2_alg».proof.Proof.LibColumn
import proofs.«126827_j30855045054731_2_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Softmax

open Cert.KernelIdeal Cert.KernelIdeal.Gen Idealize.ShloMosaic Idealize.ShloMosaic.TcCoe Idealize.SL.Sem
open Idealize.ShloMosaic.ValueIdx Cert.Attn
open Idealize.ShloMosaic.Pipeline (Dat)

/-! ## The two products of the body at an entry -/

local notation "DS" => dot_S256x1024_S4096x1024_S256x4096_1_1_0_0_n_n
local notation "DV" => dot_S256x4096_S4096x1024_S256x1024_1_0_0_1_n_n

theorem scoreLhs_row (i : S256x4096.Idx) (q : (DS).contr.Idx) : ((DS).lhsIdx i q 0).val = (i 0).val := by
  unfold DotDims.lhsIdx
  rw [dif_neg (show ¬(0 : Fin S256x1024.rank) ∈ (DS).lhsBatch by decide), dif_pos (show (0 : Fin S256x1024.rank) ∈ (DS).lhsNonContracting by decide)]
  rfl
theorem scoreRhs_row (i : S256x4096.Idx) (q : (DS).contr.Idx) : ((DS).rhsIdx i q 0).val = (i 1).val := by
  unfold DotDims.rhsIdx
  rw [dif_neg (show ¬(0 : Fin S4096x1024.rank) ∈ (DS).rhsBatch by decide), dif_pos (show (0 : Fin S4096x1024.rank) ∈ (DS).rhsNonContracting by decide)]
  rfl
theorem valueLhs_row (i : S256x1024.Idx) (q : (DV).contr.Idx) : ((DV).lhsIdx i q 0).val = (i 0).val := by
  unfold DotDims.lhsIdx
  rw [dif_neg (show ¬(0 : Fin S256x4096.rank) ∈ (DV).lhsBatch by decide), dif_pos (show (0 : Fin S256x4096.rank) ∈ (DV).lhsNonContracting by decide)]
  rfl
theorem valueRhs_col (i : S256x1024.Idx) (q : (DV).contr.Idx) : ((DV).rhsIdx i q 1).val = (i 1).val := by
  unfold DotDims.rhsIdx
  rw [dif_neg (show ¬(1 : Fin S4096x1024.rank) ∈ (DV).rhsBatch by decide), dif_pos (show (1 : Fin S4096x1024.rank) ∈ (DV).rhsNonContracting by decide)]
  rfl

/-- Entry (p, j) of q_block · kᵀ accumulated from zero: the sum over d of a (p, d) · b (j, d). -/
theorem scoreProduct_apply {φ₁ φ₂ : FTy} (a : FVec Ideal S256x1024 φ₁) (b : FVec Ideal S4096x1024 φ₂) (p : Fin 256) (j : Fin 4096) :
    matmul (DS) none a b (constant (F := Ideal) S256x4096 .f32 0x00000000#32) (ix2 p j)
      = ∑ d : Fin 1024, a (ix2 p d) * b (ix2 j d) := by
  simp only [matmul]
  rw [Ideal.matmul_constant_zero_apply, ← Equiv.sum_comp (contrEquiv1 (DS) 1024 rfl rfl).symm]
  refine Finset.sum_congr rfl fun d _ => ?_
  have hd := contrEquiv1_symm_val (DS) 1024 rfl rfl d
  have el : (DS).lhsIdx (ix2 p j) ((contrEquiv1 (DS) 1024 rfl rfl).symm d) = ix2 p d := funext fun ax => Fin.ext (by
    match ax with
    | ⟨0, _⟩ => exact scoreLhs_row _ _
    | ⟨1, _⟩ => exact ((DS).lhsIdx_val_of_single rfl (ix2 p j) _).trans hd)
  have er : (DS).rhsIdx (ix2 p j) ((contrEquiv1 (DS) 1024 rfl rfl).symm d) = ix2 j d := funext fun ax => Fin.ext (by
    match ax with
    | ⟨0, _⟩ => exact scoreRhs_row _ _
    | ⟨1, _⟩ => exact ((DS).rhsIdx_val_of_single rfl (ix2 p j) _).trans hd)
  exact congrArg₂ (fun u v : EReal => u * v) (congrArg a el) (congrArg b er)

/-- Entry (p, c) of weights · v accumulated from zero: the sum over j of a (p, j) · b (j, c). -/
theorem valueProduct_apply {φ₁ φ₂ : FTy} (a : FVec Ideal S256x4096 φ₁) (b : FVec Ideal S4096x1024 φ₂) (p : Fin 256) (c : Fin 1024) :
    matmul (DV) none a b (constant (F := Ideal) S256x1024 .f32 0x00000000#32) (ix2 p c)
      = ∑ j : Fin 4096, a (ix2 p j) * b (ix2 j c) := by
  simp only [matmul]
  rw [Ideal.matmul_constant_zero_apply, ← Equiv.sum_comp (contrEquiv1 (DV) 4096 rfl rfl).symm]
  refine Finset.sum_congr rfl fun j _ => ?_
  have hj := contrEquiv1_symm_val (DV) 4096 rfl rfl j
  have el : (DV).lhsIdx (ix2 p c) ((contrEquiv1 (DV) 4096 rfl rfl).symm j) = ix2 p j := funext fun ax => Fin.ext (by
    match ax with
    | ⟨0, _⟩ => exact valueLhs_row _ _
    | ⟨1, _⟩ => exact ((DV).lhsIdx_val_of_single rfl (ix2 p c) _).trans hj)
  have er : (DV).rhsIdx (ix2 p c) ((contrEquiv1 (DV) 4096 rfl rfl).symm j) = ix2 j c := funext fun ax => Fin.ext (by
    match ax with
    | ⟨0, _⟩ => exact ((DV).rhsIdx_val_of_single rfl (ix2 p c) _).trans hj
    | ⟨1, _⟩ => exact valueRhs_col _ _)
  exact congrArg₂ (fun u v : EReal => u * v) (congrArg a el) (congrArg b er)

/-! ## The body's payload at an entry -/

/-- The block's scaled scores, as the body forms them. -/
abbrev blockScores (x0 : FVec Ideal S256x1024 .f32) (x1 : FVec Ideal S4096x1024 .f32) : FVec Ideal S256x4096 .f32 :=
  mulf (matmul (DS) none (shapeCast S256x1024 x0 shapeCasts_S256x1024_S256x1024)
      (shapeCast S4096x1024 x1 shapeCasts_S4096x1024_S4096x1024) (constant (F := Ideal) S256x4096 .f32 0x00000000#32))
    (broadcast S256x4096 (Scalar.ofBits (F := Ideal) .f32 0x3D000000#32))

/-- The weights the body forms from a block of scores. -/
abbrev weightsOf (s : FVec Ideal S256x4096 .f32) : FVec Ideal S256x4096 .f32 :=
  exp (subf s (broadcastTo S256x4096 (shapeCast S256x1
    (multiReduction .maximumf [1] S256 s 0xFF800000#32 reduces_S256x4096_S256 (.inl rfl) rfl) shapeCasts_S256_S256x1)
    broadcasts_S256x1_S256x4096))

/-- The quotient the body forms from a block of weights and v. -/
abbrev quotientOf (e : FVec Ideal S256x4096 .f32) (x2 : FVec Ideal S4096x1024 .bf16) : FVec Ideal S256x1024 .f32 :=
  divf
    (matmul (DV) none (truncf .bf16 e bitsLt_bf16_f32)
      (shapeCast S4096x1024 x2 shapeCasts_S4096x1024_S4096x1024) (constant (F := Ideal) S256x1024 .f32 0x00000000#32))
    (broadcastTo S256x1024 (shapeCast S256x1
        (multiReduction .add [1] S256 e 0x00000000#32 reduces_S256x4096_S256 (.inl rfl) rfl) shapeCasts_S256_S256x1)
      broadcasts_S256x1_S256x1024)

/-- The body's payload is the quotient of the weights of the scores. -/
theorem pay_eq (x0 : FVec Ideal S256x1024 .f32) (x1 : FVec Ideal S4096x1024 .f32) (x2 : FVec Ideal S4096x1024 .bf16) :
    k1_pay1 (F := Ideal) x0 x1 x2 = quotientOf (weightsOf (blockScores x0 x1)) x2 := rfl

/-- Entry (p, j) of the scores is the score of query row p against key row j. -/
theorem scores_apply (x0 : FVec Ideal S256x1024 .f32) (x1 : FVec Ideal S4096x1024 .f32) (p : Fin 256) (j : Fin 4096) :
    blockScores x0 x1 (ix2 p j)
      = scoreRow (Ideal.ofBits .f32 0x3D000000#32) (fun d => x0 (ix2 p d)) (fun j d => x1 (ix2 j d)) j := by
  show mulf _ _ (ix2 p j) = _
  rw [mulf_apply, scoreProduct_apply, shapeCast_self, shapeCast_self]
  rfl

/-- The weights: the exponential of a score minus its row's maximum, the maximum folded from −∞ over the row and
    spread back along it. -/
theorem weights_apply (s : FVec Ideal S256x4096 .f32) (p : Fin 256) (j : Fin 4096) :
    weightsOf s (ix2 p j)
      = Ideal.exp (s (ix2 p j)
          - (Finset.univ : Finset (Fin 4096)).fold max (Ideal.ofBits .f32 0xFF800000#32) (fun k => s (ix2 p k))) := by
  have hM : multiReduction .maximumf [1] S256 s 0xFF800000#32 reduces_S256x4096_S256 (.inl rfl) rfl (ix1 p)
      = (Finset.univ : Finset (Fin 4096)).fold max (Ideal.ofBits .f32 0xFF800000#32) (fun k => s (ix2 p k)) :=
    Cert.LibKeepdims.max_last2_apply s 0xFF800000#32 reduces_S256x4096_S256 (.inl rfl) rfl p
  show exp _ (ix2 p j) = _
  rw [Cert.LibKeepdims.exp_apply, subf_apply, Cert.LibColumn.broadcastTo_a1_ab_apply, Cert.LibColumn.shapeCast_a_a1_apply]
  exact congrArg (fun M => Ideal.exp (s (ix2 p j) - M)) hM

/-- The quotient: the product of the weights with v, divided entrywise by the row's sum of weights spread along the
    row. -/
theorem quotient_apply (e : FVec Ideal S256x4096 .f32) (x2 : FVec Ideal S4096x1024 .bf16) (p : Fin 256) (c : Fin 1024) :
    quotientOf e x2 (ix2 p c)
      = Ideal.div (∑ j : Fin 4096, e (ix2 p j) * x2 (ix2 j c)) (∑ j : Fin 4096, e (ix2 p j)) := by
  have hL : multiReduction .add [1] S256 e 0x00000000#32 reduces_S256x4096_S256 (.inl rfl) rfl (ix1 p)
      = ∑ j : Fin 4096, e (ix2 p j) :=
    Cert.LibKeepdims.sum_last2_apply e 0x00000000#32 reduces_S256x4096_S256 (.inl rfl) rfl p
  show divf _ _ (ix2 p c) = _
  rw [divf_apply, valueProduct_apply, Cert.LibColumn.broadcastTo_a1_ab_apply, Cert.LibColumn.shapeCast_a_a1_apply]
  refine congrArg₂ Ideal.div (Finset.sum_congr rfl fun j _ => ?_) hL
  rw [shapeCast_self]
  rfl

/-- One entry of the body's payload is one entry of a row of attention. -/
theorem pay_apply (x0 : FVec Ideal S256x1024 .f32) (x1 : FVec Ideal S4096x1024 .f32) (x2 : FVec Ideal S4096x1024 .bf16)
    (p : Fin 256) (c : Fin 1024) :
    k1_pay1 (F := Ideal) x0 x1 x2 (ix2 p c)
      = attnRow (fun d => x0 (ix2 p d)) (fun j d => x1 (ix2 j d)) (fun j d => x2 (ix2 j d)) c := by
  have hrow : (fun k : Fin 4096 => blockScores x0 x1 (ix2 p k))
      = scoreRow (Ideal.ofBits .f32 0x3D000000#32) (fun d => x0 (ix2 p d)) (fun j d => x1 (ix2 j d)) :=
    funext fun k => scores_apply x0 x1 p k
  have hw : ∀ j : Fin 4096, weightsOf (blockScores x0 x1) (ix2 p j)
      = Ideal.exp (scoreRow (Ideal.ofBits .f32 0x3D000000#32) (fun d => x0 (ix2 p d)) (fun j d => x1 (ix2 j d)) j
          - maxOf (scoreRow (Ideal.ofBits .f32 0x3D000000#32) (fun d => x0 (ix2 p d)) (fun j d => x1 (ix2 j d)))) := fun j => by
    refine (weights_apply (blockScores x0 x1) p j).trans ?_
    rw [hrow, scores_apply]
    rfl
  refine (congrFun (pay_eq x0 x1 x2) (ix2 p c)).trans ((quotient_apply (weightsOf (blockScores x0 x1)) x2 p c).trans ?_)
  unfold attnRow
  exact congrArg₂ Ideal.div (Finset.sum_congr rfl fun j _ => congrArg (fun w : EReal => w * x2 (ix2 j c)) (hw j))
    (Finset.sum_congr rfl fun j _ => hw j)

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the sixteen grid points: q's block and the output block sit on block row t, k's and v's
    blocks are the whole arrays, and no block moves along the columns. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Attention of three given arrays q, k, v, entry by entry: row (i 0) of q against all of k and v, column (i 1). -/
def rowsAttn (q k : S4096x1024.Idx → EReal) (v : S4096x1024.Idx → EReal) : S4096x1024.Idx → EReal :=
  fun i => attnRow (fun d => q (ix2 (i 0) d)) (fun j d => k (ix2 j d)) (fun j d => v (ix2 j d)) (i 1)

theorem attnRow_congr {qr qr' : Fin 1024 → EReal} {k k' v v' : Fin 4096 → Fin 1024 → EReal} {c c' : Fin 1024}
    (hq : qr = qr') (hk : k = k') (hv : v = v') (hc : c = c') : attnRow qr k v c = attnRow qr' k' v' c' := by
  subst hq hk hv hc; rfl

/-- What point t writes back to the output array is block t of the attention of the arrays the region finds. -/
theorem flushed_out (c : Dev nD) (t : Fin cfg1.N) :
    (dat1 V c).flushed 3 t
      = ((cfg1.win 3).blk t).view.read (Elt Ideal) (rowsAttn (V c main_v0_0) (V c main_v0_1) (V c main_v0_2)) := by
  show (cfg1.win 3).cut (grid1.coords t) ((dat1 V c).after 3 t) = _
  rw [after1_3]
  unfold out1_3
  rw [View.canon_unit_zero zero_offsets]
  simp only [View.ld_unit_zero (S := S256x1024) zero_offsets, View.ld_unit_zero (S := S4096x1024) zero_offsets]
  obtain ⟨a0, a1, b0, b1, c0, c1, d0, d1⟩ := block_indices t
  funext j
  refine (congrArg (k1_pay1 (F := Ideal) (iblk1 V c 0 t) (iblk1 V c 1 t) (iblk1 V c 2 t)) (eq_ix2 j)).trans ?_
  refine (pay_apply (iblk1 V c 0 t) (iblk1 V c 1 t) (iblk1 V c 2 t) (j 0) (j 1)).trans ?_
  have hq : (fun d : Fin 1024 => iblk1 V c 0 t (ix2 (j 0) d))
      = fun d : Fin 1024 => V c main_v0_0 (ix2 ((((cfg1.win 3).blk t).view.emb j) 0) d) := funext fun d => by
    have h : ((cfg1.win 0).blk t).view.emb (ix2 (j 0) d) = ix2 ((((cfg1.win 3).blk t).view.emb j) 0) d := by
      funext a; apply Fin.ext
      match a with
      | ⟨0, _⟩ => show win1_0.index t (0 : Fin 2) * 256 + 1 * (j 0).val = win1_3.index t (0 : Fin 2) * 256 + 1 * (j 0).val; omega
      | ⟨1, _⟩ => show win1_0.index t (1 : Fin 2) * 1024 + 1 * d.val = d.val; omega
    exact congrArg (V c main_v0_0) h
  have hk : (fun (j' : Fin 4096) (d : Fin 1024) => iblk1 V c 1 t (ix2 j' d))
      = fun (j' : Fin 4096) (d : Fin 1024) => V c main_v0_1 (ix2 j' d) := funext fun j' => funext fun d => by
    have h : ((cfg1.win 1).blk t).view.emb (ix2 j' d) = ix2 j' d := by
      funext a; apply Fin.ext
      match a with
      | ⟨0, _⟩ => show win1_1.index t (0 : Fin 2) * 4096 + 1 * j'.val = j'.val; omega
      | ⟨1, _⟩ => show win1_1.index t (1 : Fin 2) * 1024 + 1 * d.val = d.val; omega
    exact congrArg (V c main_v0_1) h
  have hv : (fun (j' : Fin 4096) (d : Fin 1024) => iblk1 V c 2 t (ix2 j' d))
      = fun (j' : Fin 4096) (d : Fin 1024) => V c main_v0_2 (ix2 j' d) := funext fun j' => funext fun d => by
    have h : ((cfg1.win 2).blk t).view.emb (ix2 j' d) = ix2 j' d := by
      funext a; apply Fin.ext
      match a with
      | ⟨0, _⟩ => show win1_2.index t (0 : Fin 2) * 4096 + 1 * j'.val = j'.val; omega
      | ⟨1, _⟩ => show win1_2.index t (1 : Fin 2) * 1024 + 1 * d.val = d.val; omega
    exact congrArg (V c main_v0_2) h
  have hc : (j 1 : Fin 1024) = (((cfg1.win 3).blk t).view.emb j) 1 :=
    Fin.ext (show (j 1).val = win1_3.index t (1 : Fin 2) * 1024 + 1 * (j 1).val by omega)
  exact attnRow_congr hq hk hv hc

/-- An index is in point t's block of the output array exactly when each coordinate is in the block's range. -/
theorem mem_blk_out (t : Fin cfg1.N) (i : S4096x1024.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v1).slice (win1_3.rect t)).set ↔ _
  rw [View.set_slice_whole, Rect.mem_set_unit]
  exact Iff.rfl

/-- The sixteen row blocks tile the output array: row r lies in the block of point r / 256. -/
theorem cover_out (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ : ∃ t : Fin cfg1.N, t.val = (i 0).val / 256 :=
    ⟨⟨(i 0).val / 256, by show (i 0).val / 256 < grid1.N; rw [N_1]; omega⟩, rfl⟩
  obtain ⟨a0, a1, b0, b1, c0, c1, d0, d1⟩ := block_indices t
  refine ⟨t, flush1_3 t, ?_⟩
  rw [mem_blk_out]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 1024 ≤ (i 1).val ∧ (i 1).val < win1_3.index t (1 : Fin 2) * 1024 + 1024
    omega

/-- After the region, the output array is the attention of the three arrays the region found. -/
theorem final_out (c : Dev nD) :
    (dat1 V c).arrAt 3 cfg1.N = rowsAttn (V c main_v0_0) (V c main_v0_1) (V c main_v0_2) :=
  (dat1 V c).arrAt_eq_of_cover 3 _ (fun t _ => flushed_out V c t) cover_out

end Cert.KernelIdeal.Softmax

end
-- ==== Proof.KernelValue.lean ====
/-
  The idealized kernel's result as one function of its arguments.  The second region leaves in the result array the
  attention of the three arrays it finds (q, k, v); those are what the first region left, the matrix products x·Wq,
  x·Wk, x·Wv of the launch arguments, which no region writes.  So the result is the attention of x under the three
  weight matrices, in the divided-once arrangement.
-/
import proofs.«126827_j30855045054731_2_alg».proof.Proof.KernelRun
import proofs.«126827_j30855045054731_2_alg».proof.Proof.Region0
import proofs.«126827_j30855045054731_2_alg».proof.Proof.Region1

noncomputable section

namespace Cert.KernelIdeal.Result

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ) (ρ : Dev nD → PrngReg)

/-- What the second region's write-backs leave in the result array is the attention of the launch arguments. -/
theorem result_eq (c : Dev nD) :
    (dat1 (V1 m ρ) c).arrAt 3 cfg1.N
      = attn (m ((c.tc : Thread nD τ).loc main_arg0)) (m ((c.tc : Thread nD τ).loc main_arg1))
          (m ((c.tc : Thread nD τ).loc main_arg2)) (m ((c.tc : Thread nD τ).loc main_arg3)) := by
  refine (Cert.KernelIdeal.Softmax.final_out (V1 m ρ) c).trans ?_
  have hq : V1 m ρ c main_v0_0 = fun i => proj (m ((c.tc : Thread nD τ).loc main_arg0)) (m ((c.tc : Thread nD τ).loc main_arg1)) (i 0) (i 1) :=
    (Cert.KernelIdeal.Out.V1_main_v0_0 m ρ c).trans (Cert.KernelIdeal.Proj.final_q (V0 m ρ) c)
  have hk : V1 m ρ c main_v0_1 = fun i => proj (m ((c.tc : Thread nD τ).loc main_arg0)) (m ((c.tc : Thread nD τ).loc main_arg2)) (i 0) (i 1) :=
    (Cert.KernelIdeal.Out.V1_main_v0_1 m ρ c).trans (Cert.KernelIdeal.Proj.final_k (V0 m ρ) c)
  have hv : V1 m ρ c main_v0_2 = fun i => proj (m ((c.tc : Thread nD τ).loc main_arg0)) (m ((c.tc : Thread nD τ).loc main_arg3)) (i 0) (i 1) :=
    (Cert.KernelIdeal.Out.V1_main_v0_2 m ρ c).trans (Cert.KernelIdeal.Proj.final_v (V0 m ρ) c)
  rw [hq, hk, hv]
  rfl

/-- Every weakly fair execution of the idealized kernel terminates, nothing faulting, with the result array at the
    attention of the arguments and the arguments as launched. -/
theorem run : θ_run defs (onTc (τ := τ) (main (F := Ideal))) ⟨m, fun _ => 0, ρ⟩ (fun r => ∀ c : Dev nD,
      r.2.mem ((c.tc : Thread nD τ).loc main_v1)
        = attn (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Cert.KernelIdeal.Out.run_result m ρ)

end Cert.KernelIdeal.Result

end
-- ==== Proof.lean ====
/-
  The claim: the Pallas self-attention kernel and its jnp reference compute the same function over the extended reals
  whenever every input entry is finite.

  Both programs form q = x·Wq, k = x·Wk, v = x·Wv and, for each query row, softmax(q_r · kᵀ / √1024) · v.  The kernel
  does it in two regions — the three projections by blocks of 1024 rows, then attention by blocks of 256 query rows
  against the whole of k and v — scales by the literal 1/32, and divides the weighted sum Σ_j e_j · v_jc by the
  row's L = Σ_j e_j once.  The reference scales by 1 / √1024 (the same number: √1024 = 32), divides every weight e_j
  by L before the product with v, takes its row maximum once more against −∞ and starts its sum from 0.  The one step
  that is not bookkeeping is moving the division by L across the sum, which is distributivity on the reals: it is where
  finiteness of the inputs is used (every e_j is the exponential of a real, L a positive real).  The kernel's v is
  computed and stored through a narrower float format, which is the identity on extended reals.

  Frames: the two kernel programs' are the generated ones; the reference has no kernel, so its frame is its run with
  the result dropped.  The ideal pass rewrote nothing, so there is nothing to preserve.
-/
import proofs.«126827_j30855045054731_2_alg».proof.Defs
import proofs.«126827_j30855045054731_2_alg».proof.Proof.Gen.Kernel
import proofs.«126827_j30855045054731_2_alg».proof.Proof.Gen.Kernel.Skeleton
import proofs.«126827_j30855045054731_2_alg».proof.Proof.Gen.Kernel.Launch
import proofs.«126827_j30855045054731_2_alg».proof.Proof.Gen.Kernel.Points
import proofs.«126827_j30855045054731_2_alg».proof.Proof.Gen.Kernel.Frame
import proofs.«126827_j30855045054731_2_alg».proof.Proof.Gen.KernelIdeal
import proofs.«126827_j30855045054731_2_alg».proof.Proof.Gen.KernelIdeal.Skeleton
import proofs.«126827_j30855045054731_2_alg».proof.Proof.Gen.KernelIdeal.Launch
import proofs.«126827_j30855045054731_2_alg».proof.Proof.Gen.KernelIdeal.Points
import proofs.«126827_j30855045054731_2_alg».proof.Proof.Gen.KernelIdeal.Frame
import proofs.«126827_j30855045054731_2_alg».proof.Proof.Gen.ReferenceIdeal
import proofs.«126827_j30855045054731_2_alg».proof.Proof.Gen.Pre_finite_inputs
import proofs.«126827_j30855045054731_2_alg».proof.Proof.Gen.ReferenceIdeal.Run
import proofs.«126827_j30855045054731_2_alg».proof.Proof.Gen.ReferenceIdeal.Read
import proofs.«126827_j30855045054731_2_alg».proof.Proof.Spec
import proofs.«126827_j30855045054731_2_alg».proof.Proof.Finite
import proofs.«126827_j30855045054731_2_alg».proof.Proof.RefIsSpec
import proofs.«126827_j30855045054731_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the attention of the kernel's arguments: the kernel's by its two regions, the
    reference's by its stages, the agreement of the arguments, and — the inputs being finite — the law that moves the
    division by the softmax denominator across the sum. -/
theorem algebraic : Cert.algebraic_KernelIdeal_ReferenceIdeal := by
  intro m ρ m' ρ' hpre hagree
  refine ⟨fun c => Cert.Attn.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2]
  obtain ⟨hx, h1, h2, h3⟩ := Cert.Finite.real_of_pre _ _ _ _ (hpre c)
  exact Cert.Attn.attnRef_eq_attn _ _ _ _ hx h1 h2 h3

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
